-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 65
  | .vmem => 10
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S10000x64_S10000x64 : S10000x64.ShapeCasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 67
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S100000, .i32⟩
  | .hbm, ⟨10, _⟩ => ⟨S1700000, .i32⟩
  | .hbm, ⟨11, _⟩ => ⟨S1700000, .i32⟩
  | .hbm, ⟨12, _⟩ => ⟨S_, .f32⟩
  | .hbm, ⟨13, _⟩ => ⟨S100000, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_c : Ref sig .tc := ⟨.hbm, 26, rfl⟩
abbrev main_v17 : Ref sig .tc := ⟨.hbm, 27, rfl⟩
abbrev main_v18 : Ref sig .tc := ⟨.hbm, 28, rfl⟩
abbrev main_c_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_c_4 : Ref sig .tc := ⟨.hbm, 36, rfl⟩
abbrev main_v25 : Ref sig .tc := ⟨.hbm, 37, rfl⟩
abbrev main_v26 : Ref sig .tc := ⟨.hbm, 38, rfl⟩
abbrev main_c_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_6 : Ref sig .tc := ⟨.hbm, 47, rfl⟩
abbrev main_v34 : Ref sig .tc := ⟨.hbm, 48, rfl⟩
abbrev main_v35 : Ref sig .tc := ⟨.hbm, 49, rfl⟩
abbrev main_c_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KernelRun.lean ====
/-
  The idealized kernel's whole run with its result named. The program is two launches among stretches of host
  operations; the contents of the device's buffers at each boundary are a fold from the launch memory (a stretch applies
  its operations, a launch replaces its output array by what its write-backs leave). Every weakly fair execution
  terminates with the result buffer holding what the second launch's write-backs leave in its output array, and with
  the five argument arrays as launched.
-/
import proofs.«126984_j7215545057463_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the second launch's output array, so at the last boundary it holds what that launch's
    write-backs leave there. -/
theorem result_at_end (c : Dev nD) :
    W6 m ρ c (Proc.devRef .tc main_v48) = (dat1 (V5 m ρ) c).arrAt 2 cfg1.N := W6_arr m ρ c 2

set_option backward.isDefEq.respectTransparency.types false in
/-- The run: the segments of the program chained from the launch memory to the last boundary, every unscoped buffer read
    back against the final state; the result at the last boundary's contents, each argument walked back to the launch. -/
theorem run_main : θ_run defs (onTc (τ := τ) (main (F := F))) ⟨m, fun _ => 0, ρ⟩ (fun r => ∀ c : Dev nD,
      r.2.mem ((c.tc : Thread nD τ).loc main_v48) = (dat1 (V5 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨(h c _ (mem_uc main_v48 (by decide))).trans (result_at_end m ρ c),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c)⟩)

end Cert.KernelIdeal.Hand

end
-- ==== Proof.LibDot.lean ====
/-
  A rows-by-columns matrix product `[M,K] · [K,N]` read at an entry, at the ideal values: entry (i, j) is the sum over
  the contracted coordinate k of L(i,k) · R(k,j) — for the host's `dot_general` and for a kernel's `tpu.matmul`
  accumulated into a zero splat alike, whatever witness of well-formedness the dimension record carries. From it: the
  rows `o … o+m-1` of a product are the product of those rows of the left operand.
-/
import Idealize.ShloMosaic.Lib.ValueIdx
import Idealize.ShloMosaic.PureOps.Ideal.Laws
import Idealize.ShloMosaic.Lib.KernelVsHost

noncomputable section

namespace Cert.LibDot

open Idealize.ShloMosaic Idealize.ShloMosaic.ValueIdx

variable {M K N : Nat} {φ₁ φ₂ : FTy}

/-- The dimension record of a rows-by-columns product: the left operand contracted on its axis 1, the right on its
    axis 0, no batch axis. -/
abbrev rc (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ := ⟨[1], [0], [0], [1], [], [], wf⟩

/-- The host's product at entry (i, j). -/
theorem hostDot_apply (wf : DotDims.WF (⟨2, ![M, K]⟩ : Shape) ⟨2, ![K, N]⟩ ⟨2, ![M, N]⟩ [1] [0] [0] [1] [] [])
    (L : FVec Ideal ⟨2, ![M, K]⟩ φ₁) (R : FVec Ideal ⟨2, ![K, N]⟩ φ₂) (i : Fin M) (j : Fin N) :
    Host.dotGeneral (rc wf) none L R (ix2 i j) = ∑ k : Fin K, L (ix2 i k) * R (ix2 k j) := by
  simp only [Host.dotGeneral]
  rw [Ideal.dotGeneral_apply, ← Equiv.sum_comp (contrEquiv1 (rc wf) K rfl rfl).symm]
  refine Finset.sum_congr rfl fun k _ => ?_
  have hk := contrEquiv1_symm_val (rc wf) K rfl rfl k
  have el : (rc wf).lhsIdx (ix2 i j) ((contrEquiv1 (rc wf) K rfl rfl).symm k) = ix2 i k := funext fun a => Fin.ext (by
    match a with
    | ⟨0, _⟩ => rfl
    | ⟨1, _⟩ => exact ((rc wf).lhsIdx_val_of_single rfl _ _).trans hk)
  have er : (rc wf).rhsIdx (ix2 i j) ((contrEquiv1 (rc wf) K rfl rfl).symm k) = ix2 k j := funext fun a => Fin.ext (by
    match a with
    | ⟨0, _⟩ => exact ((rc wf).rhsIdx_val_of_single rfl _ _).trans hk
    | ⟨1, _⟩ => rfl)
  rw [el, er]

/-- A kernel's product into a zero accumulator at entry (i, j): the same sum. -/
theorem matmulZero_apply (wf : DotDims.WF (⟨2, ![M, K]⟩ : Shape) ⟨2, ![K, N]⟩ ⟨2, ![M, N]⟩ [1] [0] [0] [1] [] [])
    (L : FVec Ideal ⟨2, ![M, K]⟩ φ₁) (R : FVec Ideal ⟨2, ![K, N]⟩ φ₂) (i : Fin M) (j : Fin N) :
    matmul (rc wf) none L R (constant ⟨2, ![M, N]⟩ .f32 0x00000000#32) (ix2 i j) = ∑ k : Fin K, L (ix2 i k) * R (ix2 k j) := by
  rw [matmul_zero_eq_dotGeneral]
  exact hostDot_apply wf L R i j

end Cert.LibDot

end
-- ==== Proof.Product.lean ====
/-
  The first launch: rows of `x` times `W`. Its grid has ten points; point `t` reads rows `10000·t … 10000·t + 9999` of the
  left array and the whole right array, multiplies them into a zero accumulator, and writes the product back as the
  same rows of the output array. An entry `(r, q)` of the output therefore depends on row `r` of the left array and column
  `q` of the right one only: it is `∑ k, x (r, k) · W (k, q)` on the extended reals (a change of float format on the way
  into the product is the identity there). The ten row blocks tile the output, so after the launch the whole array is
  that one function of the two arrays as the launch found them.
-/
import proofs.«126984_j7215545057463_1_alg».proof.Proof.Gen.KernelIdeal.Frame
import proofs.«126984_j7215545057463_1_alg».proof.Proof.LibDot
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- Rows times columns: entry `(r, q)` is the sum over `k` of `x (r, k) · w (k, q)`. -/
def rowsTimes (x : FVec Ideal S100000x64 .f32) (w : FVec Ideal S64x64 .f32) : FVec Ideal S100000x64 .f32 :=
  fun i => ∑ k : Fin 64, x (ix2 (i 0) k) * w (ix2 k (i 1))

theorem zeroOffsets : (![0, 0] : Fin 2 → Nat) = fun _ => 0 := funext fun a => by fin_cases a <;> rfl

/-- What one point computes, at an entry of its block: the product of the block's row with the column. -/
theorem product_at (x0 : Vec Ideal S10000x64 .f32) (x1 : Vec Ideal S64x64 .f32) (j : S10000x64.Idx) :
    k0_pay1 (F := Ideal) x0 x1 j = ∑ k : Fin 64, x0 (ix2 (j 0) k) * x1 (ix2 k (j 1)) := by
  obtain ⟨p, q, rfl⟩ : ∃ (p : Fin 10000) (q : Fin 64), j = ix2 p q := ⟨j 0, j 1, eq_ix2 j⟩
  unfold k0_pay1
  exact Cert.LibDot.matmulZero_apply Facts₀.dot_S10000x64_S64x64_S10000x64_1_0_0_1_n_n_wf
    (truncf .bf16 x0 Facts₀.bitsLt_bf16_f32) (truncf .bf16 x1 Facts₀.bitsLt_bf16_f32) p q

/-- The printed index maps over the ten points: the left window and the output window sit on the same row block and on
    column block 0; the right window is always block (0, 0); the output's row block is below ten. -/
theorem product_blocks : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Every row block is some point's. -/
theorem product_onto : ∀ q0 : Fin 10, ∃ t : Fin cfg0.N, win0_2.index t = ![q0.val, 0] :=
  (by decide +kernel : ∀ q0 : Fin 10, ∃ t : Fin grid0.N, win0_2.index t = ![q0.val, 0])

variable (V : (c : Dev nD) → (b : Ref sig .tc) → Buf (Elt Ideal) ((c : Thread nD τ).loc b))

/-- What point `t` writes back is block `t` of the product of the two arrays as the launch finds them. -/
theorem product_flushed (c : Dev nD) (t : Fin cfg0.N) :
    (dat0 V c).flushed 2 t = ((cfg0.win 2).blk t).view.read (Elt Ideal) (rowsTimes (V c main_arg0) (V c main_arg3)) := by
  show (cfg0.win 2).cut (grid0.coords t) ((dat0 V c).after 2 t) = _
  rw [after0_2]
  unfold out0_2
  rw [View.canon_unit_zero zeroOffsets]
  simp only [View.ld_unit_zero (S := S10000x64) zeroOffsets, View.ld_unit_zero (S := S64x64) zeroOffsets]
  obtain ⟨e0, e1, e2, e3, e4, e5⟩ := product_blocks t
  funext j
  refine (product_at (iblk0 V c 0 t) (iblk0 V c 1 t) j).trans ?_
  show _ = rowsTimes (V c main_arg0) (V c main_arg3) (((cfg0.win 2).blk t).view.emb j)
  unfold rowsTimes
  refine Finset.sum_congr rfl fun k _ => ?_
  have hl : iblk0 V c 0 t (ix2 (j 0) k) = V c main_arg0 (ix2 ((((cfg0.win 2).blk t).view.emb j) 0) k) := by
    show V c main_arg0 (((cfg0.win 0).blk t).view.emb (ix2 (j 0) k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have hr : iblk0 V c 1 t (ix2 k (j 1)) = V c main_arg3 (ix2 k ((((cfg0.win 2).blk t).view.emb j) 1)) := by
    show V c main_arg3 (((cfg0.win 1).blk t).view.emb (ix2 k (j 1))) = _
    refine congrArg (V c main_arg3) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [hl, hr]

/-- An index of the output array lies in point `t`'s block iff each coordinate lies in the block's range. -/
theorem product_mem (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

/-- Row `r` is in the block of the point whose row block is `r / 10000`: the ten blocks tile the array. -/
theorem product_cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := product_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [product_mem]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array after the launch is the product of the two arrays as the launch found them. -/
theorem product_final (c : Dev nD) :
    (dat0 V c).arrAt 2 cfg0.N = rowsTimes (V c main_arg0) (V c main_arg3) :=
  (dat0 V c).arrAt_eq_of_cover 2 (rowsTimes (V c main_arg0) (V c main_arg3)) (fun t _ => product_flushed V c t) product_cover

end Cert.KernelIdeal.Hand

end
-- ==== Proof.Epilogue.lean ====
/-
  The second launch: bias and `tanh`. Its grid has ten points; point `t` reads rows `10000·t … 10000·t + 9999` of the
  aggregated array and the one-row bias array, lays the bias row along every row of the block, adds, applies `tanh`,
  and writes the block back as the same rows of the output. An entry `(r, q)` of the output therefore is
  `tanh (a (r, q) + b (0, q))` on the extended reals, and the ten row blocks tile the output: after the launch the whole
  array is that one function of the two arrays as the launch found them.
-/
import proofs.«126984_j7215545057463_1_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- Bias and `tanh`: entry `(r, q)` is `tanh (a (r, q) + b (0, q))`. -/
def biasTanh (a : FVec Ideal S100000x64 .f32) (b : FVec Ideal S1x64 .f32) : FVec Ideal S100000x64 .f32 :=
  fun i => Ideal.tanh (a i + b (ix2 (0 : Fin 1) (i 1)))

theorem noOffsets : (![0, 0] : Fin 2 → Nat) = fun _ => 0 := funext fun a => by fin_cases a <;> rfl

/-- What one point computes, at an entry of its block. -/
theorem epilogue_at (v0 : Vec Ideal S1x64 .f32) (v4 : Vec Ideal S10000x64 .f32) (j : S10000x64.Idx) :
    k1_pay1 (F := Ideal) v0 v4 j = Ideal.tanh (v4 j + v0 (ix2 (0 : Fin 1) (j 1))) := by
  obtain ⟨p, q, rfl⟩ : ∃ (p : Fin 10000) (q : Fin 64), j = ix2 p q := ⟨j 0, j 1, eq_ix2 j⟩
  unfold k1_pay1
  simp only [shapeCast_self]
  show Ideal.tanh (v4 (ix2 p q) + broadcastTo S10000x64 v0 Facts₀.broadcasts_S1x64_S10000x64 (ix2 p q)) = _
  rw [broadcastTo_1b_ab_apply]

/-- The printed index maps over the ten points: the aggregated window and the output window sit on the same row block
    and on column block 0; the bias window is always block (0, 0). -/
theorem epilogue_blocks : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Every row block is some point's. -/
theorem epilogue_onto : ∀ q0 : Fin 10, ∃ t : Fin cfg1.N, win1_2.index t = ![q0.val, 0] :=
  (by decide +kernel : ∀ q0 : Fin 10, ∃ t : Fin grid1.N, win1_2.index t = ![q0.val, 0])

variable (V : (c : Dev nD) → (b : Ref sig .tc) → Buf (Elt Ideal) ((c : Thread nD τ).loc b))

/-- What point `t` writes back is block `t` of `biasTanh` of the two arrays as the launch finds them. -/
theorem epilogue_flushed (c : Dev nD) (t : Fin cfg1.N) :
    (dat1 V c).flushed 2 t = ((cfg1.win 2).blk t).view.read (Elt Ideal) (biasTanh (V c main_v46) (V c main_v47)) := by
  show (cfg1.win 2).cut (grid1.coords t) ((dat1 V c).after 2 t) = _
  rw [after1_2]
  unfold out1_2
  rw [View.canon_unit_zero noOffsets]
  simp only [View.ld_unit_zero (S := S10000x64) noOffsets, View.ld_unit_zero (S := S1x64) noOffsets]
  obtain ⟨e0, e1, e2, e3, e4, e5⟩ := epilogue_blocks t
  funext j
  refine (epilogue_at (iblk1 V c 1 t) (iblk1 V c 0 t) j).trans ?_
  show _ = biasTanh (V c main_v46) (V c main_v47) (((cfg1.win 2).blk t).view.emb j)
  unfold biasTanh
  have ha : iblk1 V c 0 t j = V c main_v46 (((cfg1.win 2).blk t).view.emb j) := by
    show V c main_v46 (((cfg1.win 0).blk t).view.emb j) = _
    refine congrArg (V c main_v46) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have hb : iblk1 V c 1 t (ix2 (0 : Fin 1) (j 1)) = V c main_v47 (ix2 (0 : Fin 1) ((((cfg1.win 2).blk t).view.emb j) 1)) := by
    show V c main_v47 (((cfg1.win 1).blk t).view.emb (ix2 (0 : Fin 1) (j 1))) = _
    refine congrArg (V c main_v47) (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [ha, hb]

/-- An index of the output array lies in point `t`'s block iff each coordinate lies in the block's range. -/
theorem epilogue_mem (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v48).slice (win1_2.rect t)).set ↔ _
  rw [View.set_slice_whole, Rect.mem_set_unit]
  exact Iff.rfl

/-- Row `r` is in the block of the point whose row block is `r / 10000`: the ten blocks tile the array. -/
theorem epilogue_cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := epilogue_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [epilogue_mem]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array after the launch is `biasTanh` of the two arrays as the launch found them. -/
theorem epilogue_final (c : Dev nD) :
    (dat1 V c).arrAt 2 cfg1.N = biasTanh (V c main_v46) (V c main_v47) :=
  (dat1 V c).arrAt_eq_of_cover 2 (biasTanh (V c main_v46) (V c main_v47)) (fun t _ => epilogue_flushed V c t) epilogue_cover

end Cert.KernelIdeal.Hand

end
-- ==== Proof.Aggregate.lean ====
/-
  The graph aggregation, as one function of the projected features. Both programs turn the projected node features
  `xw` (a [100000, 64] array) into the aggregated array by the same line of host operations: every edge and every
  self loop `e` takes row `src e` of `xw`, scales it by the edge's symmetric normalisation
  `dinv (src e) · w e · dinv (dst e)`, and the scaled rows are summed at row `dst e`. The edge lists, the weights and the
  normalisation depend on the edge arrays only; they are the reference's stages of those arrays. Here the line is
  named once, with `xw` a variable, so that the two programs' aggregated arrays are this function at two arrays that
  are then shown equal; the line itself is never opened.
-/
import proofs.«126984_j7215545057463_1_alg».proof.Proof.Gen.ReferenceIdeal.Read

noncomputable section

namespace Cert.ReferenceIdeal.Hand

open Cert.ReferenceIdeal Cert.ReferenceIdeal.Gen Cert.ReferenceIdeal.Read
open Idealize.ShloMosaic Idealize.ShloMosaic.TcCoe Idealize.ShloMosaic.ValueIdx Idealize.SL.Sem

variable {F : FTy → Type} [FloatOps F]

/-- Rows of `xw` gathered by source node, scaled by the edge normalisation, summed by target node. -/
def aggregate (xw : (⟨S100000x64, .f32⟩ : BufTy).Contents (Elt F)) (x1 : (⟨S2x1600000, .i32⟩ : BufTy).Contents (Elt F))
    (x2 : (⟨S1600000, .f32⟩ : BufTy).Contents (Elt F)) : (⟨S100000x64, .f32⟩ : BufTy).Contents (Elt F) :=
  Host.scatterAdd scatter_S100000x64_S1700000x1_S1700000x64_1_0_0_1 (val_main_v44 (F := F)) (val_main_v45 (F := F) x1)
    (mulf (Host.gather gather_S100000x64_S1700000x1_S1700000x64_1_0_n_n_0_1_164 xw (val_main_v39 (F := F) x1)) (val_main_v42 (F := F) x1 x2))

/-- The reference's aggregated array is the aggregation of its projected features. -/
theorem aggregated_eq (x0 : (⟨S100000x64, .f32⟩ : BufTy).Contents (Elt F)) (x1 : (⟨S2x1600000, .i32⟩ : BufTy).Contents (Elt F))
    (x2 : (⟨S1600000, .f32⟩ : BufTy).Contents (Elt F)) (x3 : (⟨S64x64, .f32⟩ : BufTy).Contents (Elt F)) :
    val_main_v46 (F := F) x0 x1 x2 x3 = aggregate (val_main_v33 (F := F) x0 x3) x1 x2 := rfl

/-- The reference's projected features at an entry: row `r` of `x` against column `q` of `W`. -/
theorem projected_apply (x0 : (⟨S100000x64, .f32⟩ : BufTy).Contents (Elt Ideal)) (x3 : (⟨S64x64, .f32⟩ : BufTy).Contents (Elt Ideal))
    (i : S100000x64.Idx) :
    val_main_v33 (F := Ideal) x0 x3 i = ∑ k : Fin 64, x0 (ix2 (i 0) k) * x3 (ix2 k (i 1)) := by
  rw [val_main_v33_apply]
  refine Finset.sum_congr rfl fun k _ => ?_
  have el : lidx_main_v33 i k = ix2 (i 0) k := funext fun a => Fin.ext (by match a with | ⟨0, _⟩ => rfl | ⟨1, _⟩ => rfl)
  have er : ridx_main_v33 i k = ix2 k (i 1) := funext fun a => Fin.ext (by match a with | ⟨0, _⟩ => rfl | ⟨1, _⟩ => rfl)
  rw [el, er]
  rfl

end Cert.ReferenceIdeal.Hand

end
-- ==== Proof.Stages.lean ====
/-
  What the idealized kernel's buffers hold when each launch is entered, as functions of the argument arrays.
  Before the first launch the host has only read the arguments: the two arrays the product reads are the launch
  contents of `x` and `W`, and the edge lists, the weights with the self loops joined, and the symmetric normalisation are
  the same stages of the edge arrays that the reference computes. Between the launches the host gathers rows of the
  product by source node, scales them by the normalisation and sums them by target node: the aggregated array is
  `aggregate` of the first launch's output, and the bias is the argument seen as one row.
-/
import proofs.«126984_j7215545057463_1_alg».proof.Proof.Gen.KernelIdeal.Frame
import proofs.«126984_j7215545057463_1_alg».proof.Proof.Aggregate

set_option maxRecDepth 16384

noncomputable section

namespace Cert.KernelIdeal.Hand

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## Before the first launch -/

/-- The left array of the product is `x` as launched. -/
theorem entry_x (c : Dev nD) : V3 m ρ c main_arg0 = m ((c : Thread nD τ).loc main_arg0) := by
  show W3 m ρ c (Proc.devRef .tc main_arg0) = _
  dsimp only [W3, W2, W1, W0, hostOps0, hostOps0_1, hostOps0_2]
  after_results_simp

/-- The right array of the product is `W` as launched. -/
theorem entry_w (c : Dev nD) : V3 m ρ c main_arg3 = m ((c : Thread nD τ).loc main_arg3) := by
  show W3 m ρ c (Proc.devRef .tc main_arg3) = _
  dsimp only [W3, W2, W1, W0, hostOps0, hostOps0_1, hostOps0_2]
  after_results_simp

/-- The edge array is untouched. -/
theorem entry_edges (c : Dev nD) : W3 m ρ c (Proc.devRef .tc main_arg1) = m ((c : Thread nD τ).loc main_arg1) := by
  dsimp only [W3, W2, W1, W0, hostOps0, hostOps0_1, hostOps0_2]
  after_results_simp

/-- The bias is untouched. -/
theorem entry_bias (c : Dev nD) : W3 m ρ c (Proc.devRef .tc main_arg4) = m ((c : Thread nD τ).loc main_arg4) := by
  dsimp only [W3, W2, W1, W0, hostOps0, hostOps0_1, hostOps0_2]
  after_results_simp

/-- The source nodes of the edges and self loops: the reference's stage of the edge array. -/
theorem entry_sources (c : Dev nD) :
    W3 m ρ c (Proc.devRef .tc main_v5) = Cert.ReferenceIdeal.Read.val_main_v5 (F := Ideal) (m ((c : Thread nD τ).loc main_arg1)) := by
  dsimp only [W3, W2, W1, W0, hostOps0, hostOps0_1, hostOps0_2]
  after_results_simp
  rfl

/-- The target nodes: likewise. -/
theorem entry_targets (c : Dev nD) :
    W3 m ρ c (Proc.devRef .tc main_v6) = Cert.ReferenceIdeal.Read.val_main_v6 (F := Ideal) (m ((c : Thread nD τ).loc main_arg1)) := by
  dsimp only [W3, W2, W1, W0, hostOps0, hostOps0_1, hostOps0_2]
  after_results_simp
  rfl

/-! The normalisation is read boundary by boundary: after the first stretch the joined edge lists, the joined weights
    and the three operands of the `where`; after the `where` the inverse square roots of the degrees; after the third stretch
    the normalisation. At each boundary the earlier contents are a variable. -/

/-- After the first stretch: the joined source list, target list and weights, and the operands of the `where`. -/
theorem first_stretch (c : Dev nD) :
    W1 m ρ c (Proc.devRef .tc main_v5) = Cert.ReferenceIdeal.Read.val_main_v5 (F := Ideal) (m ((c : Thread nD τ).loc main_arg1))
    ∧ W1 m ρ c (Proc.devRef .tc main_v6) = Cert.ReferenceIdeal.Read.val_main_v6 (F := Ideal) (m ((c : Thread nD τ).loc main_arg1))
    ∧ W1 m ρ c (Proc.devRef .tc main_v8) = Cert.ReferenceIdeal.Read.val_main_v8 (F := Ideal) (m ((c : Thread nD τ).loc main_arg2))
    ∧ W1 m ρ c (Proc.devRef .tc main_v13) = Cert.ReferenceIdeal.Read.val_main_v13 (F := Ideal) (m ((c : Thread nD τ).loc main_arg1)) (m ((c : Thread nD τ).loc main_arg2))
    ∧ W1 m ρ c (Proc.devRef .tc main_v14) = Cert.ReferenceIdeal.Read.val_main_v14 (F := Ideal) (m ((c : Thread nD τ).loc main_arg1)) (m ((c : Thread nD τ).loc main_arg2))
    ∧ W1 m ρ c (Proc.devRef .tc main_v15) = Cert.ReferenceIdeal.Read.val_main_v15 (F := Ideal) := by
  refine ⟨?_, ?_, ?_, ?_, ?_, ?_⟩ <;>
  · dsimp only [W1, W0, hostOps0]
    after_results_simp
    rfl

/-- After the `where`: the lists and weights are as before, and the inverse square roots of the positive degrees (zero
    elsewhere) are the reference's stage. -/
theorem second_stretch (c : Dev nD) :
    W2 m ρ c (Proc.devRef .tc main_v5) = Cert.ReferenceIdeal.Read.val_main_v5 (F := Ideal) (m ((c : Thread nD τ).loc main_arg1))
    ∧ W2 m ρ c (Proc.devRef .tc main_v6) = Cert.ReferenceIdeal.Read.val_main_v6 (F := Ideal) (m ((c : Thread nD τ).loc main_arg1))
    ∧ W2 m ρ c (Proc.devRef .tc main_v8) = Cert.ReferenceIdeal.Read.val_main_v8 (F := Ideal) (m ((c : Thread nD τ).loc main_arg2))
    ∧ W2 m ρ c (Proc.devRef .tc main_v16) = Cert.ReferenceIdeal.Read.val_main_v16 (F := Ideal) (m ((c : Thread nD τ).loc main_arg1)) (m ((c : Thread nD τ).loc main_arg2)) := by
  obtain ⟨h5, h6, h8, h13, h14, h15⟩ := first_stretch m ρ c
  show StableHlo.after hostOps0_1 (W1 m ρ c) _ = _ ∧ StableHlo.after hostOps0_1 (W1 m ρ c) _ = _
    ∧ StableHlo.after hostOps0_1 (W1 m ρ c) _ = _ ∧ StableHlo.after hostOps0_1 (W1 m ρ c) _ = _
  generalize W1 m ρ c = Wp at h5 h6 h8 h13 h14 h15 ⊢
  dsimp only [hostOps0_1]
  refine ⟨?_, ?_, ?_, ?_⟩
  · after_results_simp; exact h5
  · after_results_simp; exact h6
  · after_results_simp; exact h8
  · after_results_simp
    unfold Cert.ReferenceIdeal.Read.val_main_v16
    rw [← h13, ← h14, ← h15]
    rfl

/-- The symmetric normalisation of every edge and self loop: the reference's stage of the edge arrays. -/
theorem entry_norm (c : Dev nD) :
    W3 m ρ c (Proc.devRef .tc main_v32) = Cert.ReferenceIdeal.Read.val_main_v32 (F := Ideal) (m ((c : Thread nD τ).loc main_arg1)) (m ((c : Thread nD τ).loc main_arg2)) := by
  obtain ⟨h5, h6, h8, h16⟩ := second_stretch m ρ c
  show StableHlo.after hostOps0_2 (W2 m ρ c) _ = _
  generalize W2 m ρ c = Wp at h5 h6 h8 h16 ⊢
  dsimp only [hostOps0_2]
  after_results_simp
  rw [h5, h6, h8, h16]
  rfl

/-! ## Between the launches -/

/-- The first launch's output array, as the host finds it afterwards, is what the launch's write-backs left. -/
theorem projected_stage (c : Dev nD) : V4 m ρ c main_v33 = (dat0 (V3 m ρ) c).arrAt 2 cfg0.N := (hF0 m ρ c 2).symm

/-- The aggregated array the second launch reads: `aggregate` of the first launch's output and the edge arrays. -/
theorem aggregated_stage (c : Dev nD) :
    V5 m ρ c main_v46 = Cert.ReferenceIdeal.Hand.aggregate (F := Ideal) (V4 m ρ c main_v33)
      (m ((c : Thread nD τ).loc main_arg1)) (m ((c : Thread nD τ).loc main_arg2)) := by
  show W5 m ρ c (Proc.devRef .tc main_v46) = _
  dsimp only [W5, hostOps1]
  after_results_simp
  rw [W4_of_ne m ρ c main_v5 (by decide), W4_of_ne m ρ c main_v6 (by decide), W4_of_ne m ρ c main_v32 (by decide),
    entry_sources, entry_targets, entry_norm]
  rfl

/-- The bias row the second launch reads: the bias argument seen as one row. -/
theorem bias_stage (c : Dev nD) :
    V5 m ρ c main_v47 = shapeCast S1x64 (m ((c : Thread nD τ).loc main_arg4)) Facts₀.shapeCasts_S64_S1x64 := by
  show W5 m ρ c (Proc.devRef .tc main_v47) = _
  dsimp only [W5, hostOps1]
  after_results_simp
  rw [W4_of_ne m ρ c main_arg4 (by decide), entry_bias]
  rfl

end Cert.KernelIdeal.Hand

end
-- ==== Proof.RefResult.lean ====
/-
  The reference's result at an entry `(r, q)`: `tanh` of the aggregated entry plus the bias of column `q` (the bias laid
  along every row reads, at `(r, q)`, the bias at `q`).
-/
import proofs.«126984_j7215545057463_1_alg».proof.Proof.Aggregate

noncomputable section

namespace Cert.ReferenceIdeal.Hand

open Cert.ReferenceIdeal Cert.ReferenceIdeal.Gen Cert.ReferenceIdeal.Read
open Idealize.ShloMosaic Idealize.ShloMosaic.TcCoe Idealize.ShloMosaic.ValueIdx Idealize.SL.Sem

/-- The bias laid along every row, at an entry: the bias of the entry's column. -/
theorem bias_apply (x4 : (⟨S64, .f32⟩ : BufTy).Contents (Elt Ideal)) (i : S100000x64.Idx) :
    val_main_v48 (F := Ideal) x4 i = x4 (ix1 (i 1)) :=
  ((val_main_v48_apply x4 i).trans (val_main_v47_apply x4 _)).trans
    (congrArg x4 (funext fun a => Fin.ext (by match a with | ⟨0, _⟩ => rfl)))

/-- The host's `tanh` of a sum of two extended reals is the ideal `tanh` of their sum. -/
theorem hostTanhAdd (a b : EReal) :
    FloatOps.hostUnary (F := Ideal) (φ := .f32) .tanh (FloatOps.addf (F := Ideal) (φ := .f32) a b) = Ideal.tanh (a + b) := rfl

/-- The reference's result at an entry: `tanh` of the aggregated entry plus the bias of its column. -/
theorem result_apply (x0 : (⟨S100000x64, .f32⟩ : BufTy).Contents (Elt Ideal)) (x1 : (⟨S2x1600000, .i32⟩ : BufTy).Contents (Elt Ideal))
    (x2 : (⟨S1600000, .f32⟩ : BufTy).Contents (Elt Ideal)) (x3 : (⟨S64x64, .f32⟩ : BufTy).Contents (Elt Ideal))
    (x4 : (⟨S64, .f32⟩ : BufTy).Contents (Elt Ideal)) (i : S100000x64.Idx) :
    val_main_v50 (F := Ideal) x0 x1 x2 x3 x4 i
      = Ideal.tanh (val_main_v46 (F := Ideal) x0 x1 x2 x3 i + x4 (ix1 (i 1))) :=
  (val_main_v50_apply x0 x1 x2 x3 x4 i).trans
    ((congrArg (FloatOps.hostUnary (F := Ideal) (φ := .f32) .tanh) (val_main_v49_apply x0 x1 x2 x3 x4 i)).trans
      ((hostTanhAdd _ _).trans
        (congrArg (fun z => Ideal.tanh (val_main_v46 (F := Ideal) x0 x1 x2 x3 i + z)) (bias_apply x4 i))))

end Cert.ReferenceIdeal.Hand

end
-- ==== Proof.Bridge.lean ====
/-
  The two programs compute one function. The idealized kernel's result array is
  `tanh (aggregate (x · W) + bias)`: the second launch applies bias and `tanh` to the aggregated array, which the host
  made from the first launch's output, which is the product of `x` and `W` as launched. The reference's result is
  `tanh` of the same aggregation of its own product plus the bias laid along the rows. The two products agree entry by
  entry (each is the sum over `k` of `x (r, k) · W (k, q)`), so the aggregated arrays are one array, and the two ways of
  reading the bias (one row `[1, 64]` read at `(0, q)`; a vector `[64]` read at `q`) give the same number. No law that
  needs finite inputs is used.
-/
import proofs.«126984_j7215545057463_1_alg».proof.Proof.KernelRun
import proofs.«126984_j7215545057463_1_alg».proof.Proof.Product
import proofs.«126984_j7215545057463_1_alg».proof.Proof.Epilogue
import proofs.«126984_j7215545057463_1_alg».proof.Proof.Stages
import proofs.«126984_j7215545057463_1_alg».proof.Proof.RefResult
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The kernel's result as one function of the argument arrays. -/
def kernelValue (c : Dev nD) : Buf (Elt Ideal) ((c.tc : Thread nD τ).loc main_v48) :=
  biasTanh
    (Cert.ReferenceIdeal.Hand.aggregate (F := Ideal)
      (rowsTimes (m ((c : Thread nD τ).loc main_arg0)) (m ((c : Thread nD τ).loc main_arg3)))
      (m ((c : Thread nD τ).loc main_arg1)) (m ((c : Thread nD τ).loc main_arg2)))
    (shapeCast S1x64 (m ((c : Thread nD τ).loc main_arg4)) Facts₀.shapeCasts_S64_S1x64)

/-- What the second launch's write-backs leave in the result array is that function. -/
theorem result_final (c : Dev nD) : (dat1 (V5 m ρ) c).arrAt 2 cfg1.N = kernelValue m c := by
  rw [epilogue_final (V5 m ρ) c, aggregated_stage m ρ c, bias_stage m ρ c, projected_stage m ρ c,
    product_final (V3 m ρ) c, entry_x m ρ c, entry_w m ρ c]
  rfl

/-- The kernel's run, read: the result array at `kernelValue`, the arguments unchanged. -/
theorem run : θ_run defs (onTc (τ := τ) (main (F := Ideal))) ⟨m, fun _ => 0, ρ⟩ (fun r => ∀ c : Dev nD,
      r.2.mem ((c.tc : Thread nD τ).loc main_v48) = kernelValue m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (result_final m ρ c), (h c).2⟩) (run_main m ρ)

/-- Bias and `tanh` over two equal arrays and two readings of one bias. -/
theorem biasTanh_eq (A A' : FVec Ideal S100000x64 .f32) (B : FVec Ideal S1x64 .f32) (b : FVec Ideal S64 .f32)
    (hA : A = A') (hB : ∀ q : Fin 64, B (ix2 (0 : Fin 1) q) = b (ix1 q)) (i : S100000x64.Idx) :
    biasTanh A B i = Ideal.tanh (A' i + b (ix1 (i 1))) := by
  subst hA
  unfold biasTanh
  exact congrArg (fun z => Ideal.tanh (A i + z)) (hB (i 1))

/-- The kernel's product is the reference's `dot_general`: the same sum at every entry. -/
theorem product_eq (x : FVec Ideal S100000x64 .f32) (w : FVec Ideal S64x64 .f32) :
    rowsTimes x w = Cert.ReferenceIdeal.Read.val_main_v33 (F := Ideal) x w :=
  funext fun i => (Cert.ReferenceIdeal.Hand.projected_apply x w i).symm

/-- The kernel's result is the reference's result term, at the same argument arrays. -/
theorem kernelValue_eq (c : Dev nD) :
    kernelValue m c = Cert.ReferenceIdeal.Read.val_main_v50 (F := Ideal) (m ((c : Thread nD τ).loc main_arg0))
      (m ((c : Thread nD τ).loc main_arg1)) (m ((c : Thread nD τ).loc main_arg2)) (m ((c : Thread nD τ).loc main_arg3))
      (m ((c : Thread nD τ).loc main_arg4)) := by
  funext i
  refine (biasTanh_eq _ _ _ (m ((c : Thread nD τ).loc main_arg4)) ?_ ?_ i).trans
    (Cert.ReferenceIdeal.Hand.result_apply _ _ _ _ _ i).symm
  · exact (congrArg (fun xw => Cert.ReferenceIdeal.Hand.aggregate (F := Ideal) xw (m ((c : Thread nD τ).loc main_arg1)) (m ((c : Thread nD τ).loc main_arg2)))
      (product_eq _ _)).trans (Cert.ReferenceIdeal.Hand.aggregated_eq _ _ _ _).symm
  · intro q
    exact shapeCast_a_1a_apply _ _ 0 q

end Cert.KernelIdeal.Hand

end
-- ==== Proof.lean ====
/-
  A graph-convolution layer with self loops and symmetric degree normalisation,
  `out = tanh (Σ_{e : dst e = r} norm e · (x · W)[src e] + b)`, as a kernel program and as its jnp reference, equal on the
  extended reals. The kernel program runs the dense product `x · W` and the bias-and-`tanh` epilogue as two launches
  tiled over blocks of 10000 rows, and keeps the gather / scale / scatter-sum aggregation between them as host
  operations; the reference does everything with host operations. Between the two programs only the product (a
  blockwise product into a zero accumulator, its operands narrowed to bf16 on the way in, against one whole
  `dot_general`) and the epilogue (the bias as one row laid along each block, against the bias laid along all rows)
  are arranged differently, and on the extended reals both are the same entry-by-entry functions; the host
  operations in between are the same line applied to equal arrays. The frames of the two kernel programs are the
  generated frame certificates; the reference's frame is its generated run with the result dropped; the idealization
  rewrote no operation.
-/
import proofs.«126984_j7215545057463_1_alg».proof.Defs
import proofs.«126984_j7215545057463_1_alg».proof.Proof.Gen.Kernel
import proofs.«126984_j7215545057463_1_alg».proof.Proof.Gen.Kernel.Frame
import proofs.«126984_j7215545057463_1_alg».proof.Proof.Gen.KernelIdeal
import proofs.«126984_j7215545057463_1_alg».proof.Proof.Gen.KernelIdeal.Frame
import proofs.«126984_j7215545057463_1_alg».proof.Proof.Gen.ReferenceIdeal
import proofs.«126984_j7215545057463_1_alg».proof.Proof.Gen.ReferenceIdeal.Run
import proofs.«126984_j7215545057463_1_alg».proof.Proof.Gen.ReferenceIdeal.Read
import proofs.«126984_j7215545057463_1_alg».proof.Proof.Gen.Pre_finite_inputs
import proofs.«126984_j7215545057463_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the kernel's is
    `kernelValue` of its arguments, the reference's its result term, and these are one function. -/
theorem algebraic : Cert.algebraic_KernelIdeal_ReferenceIdeal := by
  intro m ρ m' ρ' _ hagree
  refine ⟨fun c => Cert.KernelIdeal.Hand.kernelValue m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v50_eq, (hagree c).1, (hagree c).2.1, (hagree c).2.2.1, (hagree c).2.2.2.1,
    (hagree c).2.2.2.2]
  exact (Cert.KernelIdeal.Hand.kernelValue_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
